-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S512x512 : Shape := ⟨2, ![512, 512]⟩
abbrev S512 : Shape := ⟨1, ![512]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S64x1024x512 .f32) (main_arg1 : FVec F S512x512 .f32) (main_arg2 : FVec F S512 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S64x1024x512 : Shape := ⟨3, ![64, 1024, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S65536x512 : Shape := ⟨2, ![65536, 512]⟩
abbrev S2048x512 : Shape := ⟨2, ![2048, 512]⟩

abbrev nBuf : Space → Nat
  | .hbm => 18
  | .vmem => 6
  | .smem => 0
  | _ => 0

abbrev bufTy : (tb : Table) → Fin (tcTables nBuf tb) → BufTy
  | .hbm, ⟨0, _⟩ => ⟨S64x1024x512, .f32⟩
  | .hbm, ⟨1, _⟩ => ⟨S512x512, .f32⟩
  | .hbm, ⟨2, _⟩ => ⟨S512, .f32⟩
  | .hbm, ⟨3, _⟩ => ⟨S512x512, .i32⟩
  | .hbm, ⟨4, _⟩ => ⟨S_, .i32⟩
  | .hbm, ⟨5, _⟩ => ⟨S512x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .bf16⟩
  | .hbm, ⟨14, _⟩ => ⟨S1x512, .f32⟩
  | .hbm, ⟨15, _⟩ => ⟨S65536x512, .f32⟩
  | .hbm, ⟨16, _⟩ => ⟨S65536x512, .f32⟩
  | .hbm, ⟨17, _⟩ => ⟨S64x1024x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x512 : S_.BroadcastsInDim S512x512 (![] : Fin 0 → Fin S512x512.rank)
  transposes_S512x512_S512x512_1_0 : S512x512.Transposes [1, 0] S512x512
  bitsLt_bf16_f32 : FTy.bits .bf16 < FTy.bits .f32
  shapeCasts_S512_S1x512 : S512.ShapeCasts S1x512
  shapeCasts_S64x1024x512_S65536x512 : S64x1024x512.ShapeCasts S65536x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S65536x512_S64x1024x512 : S65536x512.ShapeCasts S64x1024x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v4) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x512 : Shape := ⟨3, ![64, 1024, 512]⟩
abbrev S512x512 : Shape := ⟨2, ![512, 512]⟩
abbrev S512 : Shape := ⟨1, ![512]⟩
abbrev S_ : Shape := ⟨0, ![]⟩
abbrev S1x1x512 : Shape := ⟨3, ![1, 1, 512]⟩

abbrev nBuf : Space → Nat
  | .hbm => 16
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S512x512, .f32⟩
  | .hbm, ⟨2, _⟩ => ⟨S512, .f32⟩
  | .hbm, ⟨3, _⟩ => ⟨S512x512, .i32⟩
  | .hbm, ⟨4, _⟩ => ⟨S_, .i32⟩
  | .hbm, ⟨5, _⟩ => ⟨S512x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S64x1024x512, .f32⟩
  | .hbm, ⟨13, _⟩ => ⟨S1x1x512, .f32⟩
  | .hbm, ⟨14, _⟩ => ⟨S64x1024x512, .f32⟩
  | .hbm, ⟨15, _⟩ => ⟨S64x1024x512, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512_S1x1x512_2 : S512.BroadcastsInDim S1x1x512 (![2] : Fin 1 → Fin S1x1x512.rank)
  bcast_S1x1x512_S64x1024x512_0_1_2 : S1x1x512.BroadcastsInDim S64x1024x512 (![0, 1, 2] : Fin 3 → Fin S64x1024x512.rank)
  dot_S64x1024x512_S512x512_S64x1024x512_2_1_01_0_n_n_wf : DotDims.WF S64x1024x512 S512x512 S64x1024x512 [2] [1] [0, 1] [0] [] []

variable [Facts₀]

def dot_S64x1024x512_S512x512_S64x1024x512_2_1_01_0_n_n : DotDims S64x1024x512 S512x512 S64x1024x512 where
  lhsContracting := [2]
  rhsContracting := [1]
  lhsNonContracting := [0, 1]
  rhsNonContracting := [0]
  lhsBatch := []
  rhsBatch := []
  wf := dot_S64x1024x512_S512x512_S64x1024x512_2_1_01_0_n_n_wf

class Facts : Prop extends Facts₀ where

variable [Facts]
-- ==== Proof.Spec.lean ====
/-
  The prefix-linear layer as one function of its arguments.

  Output feature `o` of row `(b, n)` is the inner product of that row of the input with row `o` of a 512 × 512
  matrix `L`, plus the bias at `o`:  out (b, n, o) = Σ_k x (b, n, k) · L (o, k) + bias o.  Both programs take for `L`
  the lower triangle of the weight matrix (the entries above the diagonal replaced by zero), so feature `o` sees only
  the input's features `0 … o`; nothing below needs to know that, and `L` stays a variable.

  The same map on the rows laid out flat — 65536 rows of 512 — with the matrix transposed and the bias as a 1 × 512
  row is `rows`: rows (r, o) = Σ_k X (r, k) · Wt (k, o) + B (0, o).
-/
import Idealize.ShloMosaic.Lib.ValueIdx
import Idealize.ShloMosaic.PureOps.Ideal

noncomputable section

namespace Cert.PrefixLinear

open Idealize.ShloMosaic Idealize.ShloMosaic.ValueIdx
open scoped BigOperators

/-- out (b, n, o) = Σ_k x (b, n, k) · L (o, k) + bias o. -/
def out (x : (⟨3, ![64, 1024, 512]⟩ : Shape).Idx → EReal) (L : (⟨2, ![512, 512]⟩ : Shape).Idx → EReal)
    (bias : (⟨1, ![512]⟩ : Shape).Idx → EReal) : (⟨3, ![64, 1024, 512]⟩ : Shape).Idx → EReal :=
  fun i => (∑ k : Fin 512, x (ix3 (i 0) (i 1) k) * L (ix2 (i 2) k)) + bias (ix1 (i 2))

theorem out_apply (x : (⟨3, ![64, 1024, 512]⟩ : Shape).Idx → EReal) (L : (⟨2, ![512, 512]⟩ : Shape).Idx → EReal)
    (bias : (⟨1, ![512]⟩ : Shape).Idx → EReal) (b : Fin 64) (n : Fin 1024) (o : Fin 512) :
    out x L bias (ix3 b n o) = (∑ k : Fin 512, x (ix3 b n k) * L (ix2 o k)) + bias (ix1 o) := rfl

/-- rows (r, o) = Σ_k X (r, k) · Wt (k, o) + B (0, o), for any number of rows. -/
def rows {R : Nat} (X : (⟨2, ![R, 512]⟩ : Shape).Idx → EReal) (Wt : (⟨2, ![512, 512]⟩ : Shape).Idx → EReal)
    (B : (⟨2, ![1, 512]⟩ : Shape).Idx → EReal) : (⟨2, ![R, 512]⟩ : Shape).Idx → EReal :=
  fun j => (∑ k : Fin 512, X (ix2 (j 0) k) * Wt (ix2 k (j 1))) + B (ix2 (0 : Fin 1) (j 1))

theorem rows_apply {R : Nat} (X : (⟨2, ![R, 512]⟩ : Shape).Idx → EReal) (Wt : (⟨2, ![512, 512]⟩ : Shape).Idx → EReal)
    (B : (⟨2, ![1, 512]⟩ : Shape).Idx → EReal) (r : Fin R) (o : Fin 512) :
    rows X Wt B (ix2 r o) = (∑ k : Fin 512, X (ix2 r k) * Wt (ix2 k o)) + B (ix2 (0 : Fin 1) o) := rfl

end Cert.PrefixLinear

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KernelBody.lean ====
/-
  What the kernel body stores, read at an index.

  The body loads a 2048 × 512 tile of rows, the whole 512 × 512 matrix and the 1 × 512 bias row, multiplies the tile
  by the matrix into a zero accumulator and adds the bias row to every row of the product. On the extended reals the
  change of float format in front of the product is the identity and the product into zero is the plain sum of
  products, so the stored tile at (p, q) is Σ_k tile (p, k) · matrix (k, q) + bias (0, q): the flat form `rows` of
  the layer on the tile.
-/
import proofs.«144870_j30640296690077_2_alg».proof.Proof.Gen.KernelIdeal.Skeleton
import proofs.«144870_j30640296690077_2_alg».proof.Proof.Spec
import proofs.«144870_j30640296690077_2_alg».proof.Proof.LibPlainDot
import proofs.«144870_j30640296690077_2_alg».proof.Proof.LibRowBroadcasts
import Idealize.ShloMosaic.Lib.Pipeline.Value

noncomputable section

namespace Cert.KernelIdeal.Body

open Cert.KernelIdeal Cert.KernelIdeal.Gen Idealize.ShloMosaic Idealize.ShloMosaic.ValueIdx
open scoped BigOperators

/-- The stored tile at (p, q). -/
theorem pay_apply (x0 : Vec Ideal S2048x512 .f32) (w : Vec Ideal S512x512 .bf16) (b : Vec Ideal S1x512 .f32)
    (p : Fin 2048) (q : Fin 512) :
    k0_pay1 (F := Ideal) x0 w b (ix2 p q)
      = (∑ k : Fin 512, x0 (ix2 p k) * w (ix2 k q)) + b (ix2 (0 : Fin 1) q) := by
  unfold k0_pay1
  rw [addf_apply, shapeCast_self, shapeCast_self, shapeCast_self]
  refine congrArg₂ (· + ·) ?_ ?_
  · exact Cert.Lib.PlainDot.matmul_zero_apply dot_S2048x512_S512x512_S2048x512_1_0_0_1_n_n_wf none _ w p q
  · exact Cert.Lib.Rows.bcastRow_apply b broadcasts_S1x512_S2048x512 p q

/-- The stored tile is the layer's flat form on the loaded tile. -/
theorem pay_eq (x0 : Vec Ideal S2048x512 .f32) (w : Vec Ideal S512x512 .bf16) (b : Vec Ideal S1x512 .f32) :
    k0_pay1 (F := Ideal) x0 w b = Cert.PrefixLinear.rows x0 w b := by
  funext j
  obtain ⟨p, q, rfl⟩ : ∃ (p : Fin 2048) (q : Fin 512), j = ix2 p q := ⟨j 0, j 1, eq_ix2 j⟩
  exact pay_apply x0 w b p q

end Cert.KernelIdeal.Body

end
-- ==== Proof.KernelArray.lean ====
/-
  The array the kernel's region leaves: the flat form of the layer on the arrays the region finds.

  The grid has 32 points. At point `t` the input window holds rows 2048·t … 2048·t + 2047 of the flat input, the
  matrix and bias windows hold their whole arrays, and the output window's block is rows 2048·t … 2048·t + 2047 of the
  result. The body leaves `rows` of its loaded tile there (KernelBody), and `rows` of a tile of rows is the same
  tile of `rows` of the whole array, because a result row depends only on the input row with the same number. The 32
  blocks tile the 65536 rows — row r lies in the block of point r / 2048 — so after the last write-back the whole
  array is `rows` of the three arrays as the region found them.
-/
import proofs.«144870_j30640296690077_2_alg».proof.Proof.Gen.KernelIdeal.Frame
import proofs.«144870_j30640296690077_2_alg».proof.Proof.KernelBody
import Idealize.ShloMosaic.Lib.Pipeline.Value

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ)

theorem offsets_zero : (![0, 0] : Fin 2 → Nat) = fun _ => 0 := funext fun a => by fin_cases a <;> rfl

/-- What the body leaves in the output buffer is the flat form on the three loaded blocks. -/
theorem left_eq (x0 : Vec Ideal S2048x512 .f32) (x1 : Vec Ideal S512x512 .bf16) (x2 : Vec Ideal S1x512 .f32) :
    out0_3 (F := Ideal) x0 x1 x2 = Cert.PrefixLinear.rows x0 x1 x2 := by
  unfold out0_3
  rw [View.canon_unit_zero offsets_zero]
  simp only [View.ld_unit_zero (S := S2048x512) offsets_zero, View.ld_unit_zero (S := S512x512) offsets_zero,
    View.ld_unit_zero (S := S1x512) offsets_zero]
  exact Cert.KernelIdeal.Body.pay_eq x0 x1 x2

/-- The printed index maps over the grid: the input and output row windows are at block row `t`, column block 0;
    the matrix and the bias windows never move. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s tile is row 2048·t + p of the array. -/
abbrev tileRow (t : Fin cfg0.N) (p : Fin 2048) : Fin 65536 :=
  ⟨t.val * 2048 + p.val, by have h : t.val < 32 := N_0 ▸ t.isLt; have := p.isLt; omega⟩

/-- The input window's block at point `t`, read at (p, k): the flat input at row 2048·t + p. -/
theorem inBlock_apply (c : Dev nD) (t : Fin cfg0.N) (p : Fin 2048) (k : Fin 512) :
    iblk m c 0 t (ix2 p k) = V m c main_v4 (ix2 (tileRow t p) k) := by
  obtain ⟨e0, e1, -⟩ := index_facts t
  show V m c main_v4 (((cfg0.win 0).blk t).view.emb (ix2 p k)) = _
  refine congrArg (V m c main_v4) (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 512 + 1 * k.val = k.val; rw [e1]; omega

/-- The matrix window's block is the whole matrix. -/
theorem matBlock_apply (c : Dev nD) (t : Fin cfg0.N) (k q : Fin 512) :
    iblk m c 1 t (ix2 k q) = V m c main_v2 (ix2 k q) := by
  obtain ⟨-, -, e0, e1, -⟩ := index_facts t
  show V m c main_v2 (((cfg0.win 1).blk t).view.emb (ix2 k q)) = _
  refine congrArg (V m c main_v2) (funext fun a => Fin.ext ?_)
  match a with
  | ⟨0, _⟩ => show win0_1.index t (0 : Fin 2) * 512 + 1 * k.val = k.val; rw [e0]; omega
  | ⟨1, _⟩ => show win0_1.index t (1 : Fin 2) * 512 + 1 * q.val = q.val; rw [e1]; omega

/-- The bias window's block is the whole bias row. -/
theorem biasBlock_apply (c : Dev nD) (t : Fin cfg0.N) (u : Fin 1) (q : Fin 512) :
    iblk m c 2 t (ix2 u q) = V m c main_v3 (ix2 u q) := by
  obtain ⟨-, -, -, -, e0, e1, -⟩ := index_facts t
  show V m c main_v3 (((cfg0.win 2).blk t).view.emb (ix2 u q)) = _
  refine congrArg (V m c main_v3) (funext fun a => Fin.ext ?_)
  match a with
  | ⟨0, _⟩ => show win0_2.index t (0 : Fin 2) * 1 + 1 * u.val = u.val; rw [e0]; omega
  | ⟨1, _⟩ => show win0_2.index t (1 : Fin 2) * 512 + 1 * q.val = q.val; rw [e1]; omega

/-- Entry (p, q) of the output block at point `t` sits at (2048·t + p, q) of the array. -/
theorem outBlock_emb (t : Fin cfg0.N) (p : Fin 2048) (q : Fin 512) :
    ((cfg0.win 3).blk t).view.emb (ix2 p q) = ix2 (tileRow t p) q := by
  obtain ⟨-, -, -, -, -, -, e0, e1⟩ := index_facts t
  refine funext fun a => Fin.ext ?_
  match a with
  | ⟨0, _⟩ => show win0_3.index t (0 : Fin 2) * 2048 + 1 * p.val = t.val * 2048 + p.val; rw [e0]; omega
  | ⟨1, _⟩ => show win0_3.index t (1 : Fin 2) * 512 + 1 * q.val = q.val; rw [e1]; omega

/-- What point `t` writes back is block `t` of the flat form on the arrays the region finds. -/
theorem flushed_eq (c : Dev nD) (t : Fin cfg0.N) :
    (dats m 0 c).flushed 3 t
      = ((cfg0.win 3).blk t).view.read (Elt Ideal)
          (Cert.PrefixLinear.rows (V m c main_v4) (V m c main_v2) (V m c main_v3)) := by
  show (cfg0.win 3).cut (grid0.coords t) ((dats m 0 c).after 3 t) = _
  rw [after0_3, left_eq (iblk m c 0 t) (iblk m c 1 t) (iblk m c 2 t)]
  funext j
  obtain ⟨p, q, rfl⟩ : ∃ (p : Fin 2048) (q : Fin 512), j = ix2 p q := ⟨j 0, j 1, eq_ix2 j⟩
  show Cert.PrefixLinear.rows (R := 2048) (iblk m c 0 t) (iblk m c 1 t) (iblk m c 2 t) (ix2 p q)
    = Cert.PrefixLinear.rows (R := 65536) (V m c main_v4) (V m c main_v2) (V m c main_v3)
        (((cfg0.win 3).blk t).view.emb (ix2 p q))
  rw [outBlock_emb t p q]
  refine (Cert.PrefixLinear.rows_apply (R := 2048) (iblk m c 0 t) (iblk m c 1 t) (iblk m c 2 t) p q).trans
    (Eq.trans ?_ (Cert.PrefixLinear.rows_apply (R := 65536) (V m c main_v4) (V m c main_v2) (V m c main_v3) (tileRow t p) q).symm)
  exact congrArg₂ (· + ·)
    (Finset.sum_congr rfl fun k _ => congrArg₂ (· * ·) (inBlock_apply m c t p k) (matBlock_apply m c t k q))
    (biasBlock_apply m c t 0 q)

/-- An index of the array is in point `t`'s block iff each coordinate is in the block's range on its axis. -/
theorem mem_block (t : Fin cfg0.N) (i : S65536x512.Idx) :
    i ∈ ((cfg0.win 3).blk t).view.set
      ↔ ∀ a : Fin 2, win0_3.index t a * S2048x512.size a ≤ (i a).val
          ∧ (i a).val < win0_3.index t a * S2048x512.size a + S2048x512.size a := by
  show i ∈ ((View.whole main_v5).slice (win0_3.rect t)).set ↔ _
  rw [View.set_slice_whole, Rect.mem_set_unit]
  exact Iff.rfl

/-- Every index of the array lies in the block of the point its row falls in. -/
theorem covered (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  let t : Fin cfg0.N := ⟨(i 0).val / 2048, by rw [show cfg0.N = 32 from N_0]; omega⟩
  obtain ⟨-, -, -, -, -, -, e0, e1⟩ := index_facts t
  have ht : t.val = (i 0).val / 2048 := rfl
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 512 ≤ (i 1).val ∧ (i 1).val < win0_3.index t (1 : Fin 2) * 512 + 512
    rw [e1]; omega

/-- The output array after the region. -/
theorem final (c : Dev nD) :
    (dats m 0 c).arrAt 3 cfg0.N = Cert.PrefixLinear.rows (V m c main_v4) (V m c main_v2) (V m c main_v3) :=
  (dats m 0 c).arrAt_eq_of_cover 3 _ (fun t _ => flushed_eq m c t) covered

end Cert.KernelIdeal.Array

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.Flatten.lean ====
/-
  The flat form of the layer is the layer.

  Laying the 64 × 1024 rows of the input out as 65536 rows, transposing the matrix, writing the bias as a 1 × 512 row,
  applying the flat form `rows` and folding the 65536 result rows back into 64 × 1024 gives `out`: row (b, n) is flat
  row 1024·b + n, entry (k, o) of the transposed matrix is entry (o, k) of the matrix, and entry (0, o) of the bias row
  is entry o of the bias. Every step is a re-indexing; the sums and products are the same terms in the same order, so
  the identity holds on all extended reals.
-/
import proofs.«144870_j30640296690077_2_alg».proof.Proof.Spec
import proofs.«144870_j30640296690077_2_alg».proof.Proof.LibMergeRows
import Idealize.ShloMosaic.Lib.Pipeline.Value

noncomputable section

namespace Cert.PrefixLinear

open Idealize.ShloMosaic Idealize.ShloMosaic.ValueIdx
open scoped BigOperators

/-- The flat form on the flattened input, the transposed matrix and the bias row, folded back, is the layer. -/
theorem unflat_rows (x : (⟨3, ![64, 1024, 512]⟩ : Shape).Idx → EReal) (L : (⟨2, ![512, 512]⟩ : Shape).Idx → EReal)
    (bias : (⟨1, ![512]⟩ : Shape).Idx → EReal)
    (hx : (⟨3, ![64, 1024, 512]⟩ : Shape).ShapeCasts ⟨2, ![65536, 512]⟩)
    (hL : (⟨2, ![512, 512]⟩ : Shape).Transposes [1, 0] ⟨2, ![512, 512]⟩)
    (hb : (⟨1, ![512]⟩ : Shape).ShapeCasts ⟨2, ![1, 512]⟩)
    (hy : (⟨2, ![65536, 512]⟩ : Shape).ShapeCasts ⟨3, ![64, 1024, 512]⟩) :
    shapeCast ⟨3, ![64, 1024, 512]⟩
        (rows (shapeCast ⟨2, ![65536, 512]⟩ x hx) (transpose ⟨2, ![512, 512]⟩ [1, 0] L hL) (shapeCast ⟨2, ![1, 512]⟩ bias hb)) hy
      = out x L bias := by
  funext i
  obtain ⟨b, n, o, rfl⟩ : ∃ (b : Fin 64) (n : Fin 1024) (o : Fin 512), i = ix3 b n o := ⟨i 0, i 1, i 2, eq_ix3 i⟩
  have hr : (65536 : Nat) = 64 * 1024 := rfl
  rw [Cert.Lib.MergeRows.split_apply hr _ hy b n o, rows_apply, out_apply, Cert.Lib.MergeRows.row_apply bias hb o]
  refine congrArg (· + bias (ix1 o)) (Finset.sum_congr rfl fun k _ => ?_)
  rw [Cert.Lib.MergeRows.merge_apply hr x hx b n k, Cert.Lib.MergeRows.transpose_apply L hL k o]

end Cert.PrefixLinear

end
-- ==== Proof.KernelRun.lean ====
/-
  The kernel program's run, read to its result.

  Before the region the host computes the lower triangle of the weight matrix, transposes it and changes its float
  format (the identity on the extended reals), writes the bias as a 1 × 512 row and lays the input's 64 × 1024 rows out
  flat; those three arrays are what the region finds. After the region the host folds the 65536 result rows back into
  64 × 1024. So the program's result is the folded-back flat form on the flattened input, the transposed lower
  triangle and the bias row — which is the layer itself (Flatten).
-/
import proofs.«144870_j30640296690077_2_alg».proof.Proof.KernelArray
import proofs.«144870_j30640296690077_2_alg».proof.Proof.Flatten
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The lower triangle of a 512 × 512 matrix as the host computes it: entry (i, j) is kept where i ≥ j and replaced
    by zero elsewhere. -/
def lower (W : FVec Ideal S512x512 .f32) : FVec Ideal S512x512 .f32 :=
  select (cmpi .sge (addi (iotaInDim S512x512 32 0) (broadcastInDim S512x512 ![] bcast_S_S512x512 (constantI S_ 32 0#32)))
      (iotaInDim S512x512 32 1))
    W (broadcastInDim S512x512 ![] bcast_S_S512x512 (constant (F := Ideal) S_ .f32 0x00000000#32))

/-- The region finds the input with its rows laid out flat. -/
theorem found_input (c : Dev nD) :
    (V m c main_v4 : S65536x512.Idx → EReal)
      = shapeCast S65536x512 (m ((c : Thread nD τ).loc main_arg0)) shapeCasts_S64x1024x512_S65536x512 := by
  dsimp only [Gen.V, Gen.V0]
  simp only [Gen.hostOps0, Gen.hostOps0_1, List.flatten_cons, List.flatten_nil, List.append_nil, List.cons_append,
    List.nil_append]
  after_results
  rfl

/-- The region finds the bias as a 1 × 512 row. -/
theorem found_bias (c : Dev nD) :
    (V m c main_v3 : S1x512.Idx → EReal)
      = shapeCast S1x512 (m ((c : Thread nD τ).loc main_arg2)) shapeCasts_S512_S1x512 := by
  dsimp only [Gen.V, Gen.V0]
  simp only [Gen.hostOps0, Gen.hostOps0_1, List.flatten_cons, List.flatten_nil, List.append_nil, List.cons_append,
    List.nil_append]
  after_results
  rfl

/-- The region finds the transposed lower triangle of the weight matrix. -/
theorem found_matrix (c : Dev nD) :
    (V m c main_v2 : S512x512.Idx → EReal)
      = transpose S512x512 [1, 0] (lower (m ((c : Thread nD τ).loc main_arg1))) transposes_S512x512_S512x512_1_0 := by
  dsimp only [Gen.V, Gen.V0]
  simp only [Gen.hostOps0, Gen.hostOps0_1, List.flatten_cons, List.flatten_nil, List.append_nil, List.cons_append,
    List.nil_append]
  after_results
  rfl

/-- The program's result from the region's output array: the 65536 rows folded back. -/
theorem result_eq (c : Dev nD) :
    (Pipeline.afterTail₀ cfgs (dats m) 0 (V0 m) [hostOps1] c main_v6 : S64x1024x512.Idx → EReal)
      = Cert.PrefixLinear.out (m ((c : Thread nD τ).loc main_arg0)) (lower (m ((c : Thread nD τ).loc main_arg1)))
          (m ((c : Thread nD τ).loc main_arg2)) := by
  unfold Pipeline.afterTail₀
  show StableHlo.after hostOps1 _ (Proc.devRef .tc main_v6) = _
  after_results
  have hA : Pipeline.withArrays (cfgs 0).spec c (V0 m c) (fun w => (dats m 0 c).arrAt w (cfgs 0).N)
        (Proc.devRef .tc main_v5)
      = Cert.PrefixLinear.rows (V m c main_v4) (V m c main_v2) (V m c main_v3) :=
    (Pipeline.withArrays_arr spec0 launch0.win.arr_inj c _ _ 3).trans (Cert.KernelIdeal.Array.final m c)
  show shapeCast S64x1024x512
      (Pipeline.withArrays (cfgs 0).spec c (V0 m c) (fun w => (dats m 0 c).arrAt w (cfgs 0).N) (Proc.devRef .tc main_v5))
      shapeCasts_S65536x512_S64x1024x512 = _
  rw [hA, found_input, found_matrix, found_bias]
  exact Cert.PrefixLinear.unflat_rows _ _ _ shapeCasts_S64x1024x512_S65536x512 transposes_S512x512_S512x512_1_0
    shapeCasts_S512_S1x512 shapeCasts_S65536x512_S64x1024x512

/-- Every weakly fair execution of the kernel program ends with its result at the layer of its arguments over the
    lower triangle of the weight matrix, and the arguments unchanged. -/
theorem run : θ_run defs (onTc (τ := τ) (main (F := Ideal))) ⟨m, fun _ => 0, ρ⟩ fun r => ∀ c : Dev nD,
      r.2.mem ((c.tc : Thread nD τ).loc main_v6)
        = Cert.PrefixLinear.out (m ((c : Thread nD τ).loc main_arg0)) (lower (m ((c : Thread nD τ).loc main_arg1)))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference's result is the layer.

  The reference contracts the input's feature axis with the column axis of the lower triangle of the weight matrix —
  entry (b, n, o) is Σ_k x (b, n, k) · L (o, k) — and adds the bias broadcast over the rows. Read at an index, stage by
  stage, that is `out x L bias` with `L` the reference's own lower triangle.
-/
import proofs.«144870_j30640296690077_2_alg».proof.Proof.Gen.ReferenceIdeal.Read
import proofs.«144870_j30640296690077_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx
open scoped BigOperators

/-- The reference's result, as a function of its three arguments, is the layer over its lower triangle. -/
theorem result_eq (x : FVec Ideal S64x1024x512 .f32) (W : FVec Ideal S512x512 .f32) (bias : FVec Ideal S512 .f32) :
    val_main_v4 (F := Ideal) x W bias = Cert.PrefixLinear.out x (val_main_v0 (F := Ideal) W) bias := by
  funext i
  obtain ⟨b, n, o, rfl⟩ : ∃ (b : Fin 64) (n : Fin 1024) (o : Fin 512), i = ix3 b n o := ⟨i 0, i 1, i 2, eq_ix3 i⟩
  have el : ∀ k : Fin 512, lidx_main_v1 (ix3 b n o) k = ix3 b n k := fun k =>
    funext fun a => Fin.ext (by match a with | ⟨0, _⟩ => rfl | ⟨1, _⟩ => rfl | ⟨2, _⟩ => rfl)
  have er : ∀ k : Fin 512, ridx_main_v1 (ix3 b n o) k = ix2 o k := fun k =>
    funext fun a => Fin.ext (by match a with | ⟨0, _⟩ => rfl | ⟨1, _⟩ => rfl)
  have eb : idx_main_v2 (idx_main_v3 (ix3 b n o)) = ix1 o :=
    funext fun a => Fin.ext (by match a with | ⟨0, _⟩ => rfl)
  rw [val_main_v4_apply, val_main_v1_apply, val_main_v3_apply, val_main_v2_apply, Cert.PrefixLinear.out_apply, eb]
  simp only [el, er]
  rfl

end Cert.ReferenceIdeal.RefValue

end
-- ==== Proof.lean ====
/-
  A prefix-linear layer: out (b, n, o) = Σ_k x (b, n, k) · L (o, k) + bias o, with `L` the lower triangle of a
  512 × 512 weight matrix, over 64 × 1024 rows of 512 features.

  The kernel program forms the lower triangle on the host, transposes it, lays the rows out flat as 65536 × 512 and
  runs a one-axis grid of 32 tiles of 2048 rows: each tile is multiplied by the transposed triangle into a zero
  accumulator and the bias row is added; the result rows are folded back into 64 × 1024. The reference contracts the
  feature axis of the input with the column axis of the same lower triangle and adds the broadcast bias.

  On the extended reals a change of float format is the identity and a product into a zero accumulator is the plain
  sum of products, so both programs compute, at every index, the same sum of the same products in the same order plus
  the same bias entry. The two sides differ only by re-indexing (flattening the rows, transposing the matrix, a unit
  axis on the bias); no algebraic law beyond that is used, and the finiteness of the inputs is never needed.

  The modules: Spec (the layer `out` and its flat form `rows`), Flatten (the flat form folded back is the layer),
  KernelBody (the stored tile at an index), KernelArray (the region's output array is the flat form on what the
  region finds), KernelRun (what the region finds; the program's result), RefValue (the reference's result is the
  layer). The three frames are the generated ones; the idealization rewrote nothing, so `preserves` is trivial.
-/
import proofs.«144870_j30640296690077_2_alg».proof.Defs
import proofs.«144870_j30640296690077_2_alg».proof.Proof.Gen.Kernel
import proofs.«144870_j30640296690077_2_alg».proof.Proof.Gen.Kernel.Skeleton
import proofs.«144870_j30640296690077_2_alg».proof.Proof.Gen.Kernel.Launch
import proofs.«144870_j30640296690077_2_alg».proof.Proof.Gen.Kernel.Points
import proofs.«144870_j30640296690077_2_alg».proof.Proof.Gen.Kernel.Frame
import proofs.«144870_j30640296690077_2_alg».proof.Proof.Gen.KernelIdeal
import proofs.«144870_j30640296690077_2_alg».proof.Proof.Gen.KernelIdeal.Skeleton
import proofs.«144870_j30640296690077_2_alg».proof.Proof.Gen.KernelIdeal.Launch
import proofs.«144870_j30640296690077_2_alg».proof.Proof.Gen.KernelIdeal.Points
import proofs.«144870_j30640296690077_2_alg».proof.Proof.Gen.KernelIdeal.Frame
import proofs.«144870_j30640296690077_2_alg».proof.Proof.Gen.ReferenceIdeal
import proofs.«144870_j30640296690077_2_alg».proof.Proof.Gen.ReferenceIdeal.Run
import proofs.«144870_j30640296690077_2_alg».proof.Proof.Gen.ReferenceIdeal.Read
import proofs.«144870_j30640296690077_2_alg».proof.Proof.Gen.Pre_finite_inputs
import proofs.«144870_j30640296690077_2_alg».proof.Proof.KernelRun
import proofs.«144870_j30640296690077_2_alg».proof.Proof.RefValue
import Idealize.ShloMosaic.Adequacy
import Idealize.ShloMosaic.Init

noncomputable section

namespace Cert.Proof

open Idealize.ShloMosaic Idealize.SL.Sem

/-- The two programs form the lower triangle by the same host operations on the same matrix. -/
theorem lower_eq (W : FVec Ideal Cert.KernelIdeal.S512x512 .f32) :
    Cert.KernelIdeal.Result.lower W = Cert.ReferenceIdeal.Read.val_main_v0 (F := Ideal) W := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments both programs end with the layer of those arguments over the
    lower triangle of the weight matrix. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2.1,
    (hagree c).2.2, lower_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
